-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x8192x1 : Shape := ⟨3, ![4, 8192, 1]⟩
abbrev S4x64x8192 : Shape := ⟨3, ![4, 64, 8192]⟩
abbrev S4x4096x1 : Shape := ⟨3, ![4, 4096, 1]⟩
abbrev S_ : Shape := ⟨0, ![]⟩

class Facts : Prop where
  bcast_S_S4x8192x1 : S_.BroadcastsInDim S4x8192x1 (![] : Fin 0 → Fin S4x8192x1.rank)
  reducesTo_S4x8192x1_S_d0_1_2 : S4x8192x1.ReducesTo [0, 1, 2] S_
  h_S_ : 0 < S_.numel
  bcast_S_S4x64x8192 : S_.BroadcastsInDim S4x64x8192 (![] : Fin 0 → Fin S4x64x8192.rank)
  reducesTo_S4x64x8192_S_d0_1_2 : S4x64x8192.ReducesTo [0, 1, 2] S_
  bcast_S_S4x4096x1 : S_.BroadcastsInDim S4x4096x1 (![] : Fin 0 → Fin S4x4096x1.rank)
  reducesTo_S4x4096x1_S_d0_1_2 : S4x4096x1.ReducesTo [0, 1, 2] S_
  reducesTo_S_S_d : S_.ReducesTo [] S_

variable [Facts]

def fn_part1 {F : FTy → Type} [FloatOps F] (main_v13 : IVec S_ 1) (main_v15 : IVec S_ 1) (main_c_5 : IVec S_ 1) : IVec S_ 1 :=
  let main_v16 : IVec S_ 1 := (fun x v => Host.reduce IntOp.andi x v reducesTo_S_S_d h_S_) main_v15 main_c_5
  let main_v17 : IVec S_ 1 := andi main_v13 main_v16
  main_v17

def fn {F : FTy → Type} [FloatOps F] (main_arg0 : FVec F S4x8192x1 .f32) (main_arg1 : FVec F S4x64x8192 .f32) (main_arg2 : FVec F S4x4096x1 .f32) (main_arg3 : FVec F S_ .f32) : IVec S_ 1 :=
  let main_v0 : FVec F S4x8192x1 .f32 := Host.absf main_arg0
  let main_cst : FVec F S_ .f32 := constant S_ .f32 0x7F800000#32
  let main_v1 : FVec F S4x8192x1 .f32 := broadcastInDim S4x8192x1 ![] bcast_S_S4x8192x1 main_cst
  let main_v2 : IVec S4x8192x1 1 := cmpf .olt main_v0 main_v1
  let main_c : IVec S_ 1 := constantI S_ 1 1#1
  let main_v3 : IVec S_ 1 := (fun x v => Host.reduce IntOp.andi x v reducesTo_S4x8192x1_S_d0_1_2 h_S_) main_v2 main_c
  let main_v4 : FVec F S4x64x8192 .f32 := Host.absf main_arg1
  let main_cst_0 : FVec F S_ .f32 := constant S_ .f32 0x7F800000#32
  let main_v5 : FVec F S4x64x8192 .f32 := broadcastInDim S4x64x8192 ![] bcast_S_S4x64x8192 main_cst_0
  let main_v6 : IVec S4x64x8192 1 := cmpf .olt main_v4 main_v5
  let main_c_1 : IVec S_ 1 := constantI S_ 1 1#1
  let main_v7 : IVec S_ 1 := (fun x v => Host.reduce IntOp.andi x v reducesTo_S4x64x8192_S_d0_1_2 h_S_) main_v6 main_c_1
  let main_v8 : IVec S_ 1 := andi main_v3 main_v7
  let main_v9 : FVec F S4x4096x1 .f32 := Host.absf main_arg2
  let main_cst_2 : FVec F S_ .f32 := constant S_ .f32 0x7F800000#32
  let main_v10 : FVec F S4x4096x1 .f32 := broadcastInDim S4x4096x1 ![] bcast_S_S4x4096x1 main_cst_2
  let main_v11 : IVec S4x4096x1 1 := cmpf .olt main_v9 main_v10
  let main_c_3 : IVec S_ 1 := constantI S_ 1 1#1
  let main_v12 : IVec S_ 1 := (fun x v => Host.reduce IntOp.andi x v reducesTo_S4x4096x1_S_d0_1_2 h_S_) main_v11 main_c_3
  let main_v13 : IVec S_ 1 := andi main_v8 main_v12
  let main_v14 : FVec F S_ .f32 := Host.absf main_arg3
  let main_cst_4 : FVec F S_ .f32 := constant S_ .f32 0x7F800000#32
  let main_v15 : IVec S_ 1 := cmpf .olt main_v14 main_cst_4
  let main_c_5 : IVec S_ 1 := constantI S_ 1 1#1
  fn_part1 (F := F) main_v13 main_v15 main_c_5
-- ==== Kernel.lean ====
abbrev S4x8192x1 : Shape := ⟨3, ![4, 8192, 1]⟩
abbrev S4x64x8192 : Shape := ⟨3, ![4, 64, 8192]⟩
abbrev S4x4096x1 : Shape := ⟨3, ![4, 4096, 1]⟩
abbrev S_ : Shape := ⟨0, ![]⟩
abbrev S4x1x8192 : Shape := ⟨3, ![4, 1, 8192]⟩
abbrev S4x4096x64 : Shape := ⟨3, ![4, 4096, 64]⟩
abbrev S1x1024x1 : Shape := ⟨3, ![1, 1024, 1]⟩
abbrev S1x1x1024 : Shape := ⟨3, ![1, 1, 1024]⟩
abbrev S1x64x1024 : Shape := ⟨3, ![1, 64, 1024]⟩
abbrev S1x1024x64 : Shape := ⟨3, ![1, 1024, 64]⟩
abbrev S1024x64 : Shape := ⟨2, ![1024, 64]⟩
abbrev S1024x1 : Shape := ⟨2, ![1024, 1]⟩
abbrev S1x1024 : Shape := ⟨2, ![1, 1024]⟩
abbrev S1024x1024 : Shape := ⟨2, ![1024, 1024]⟩
abbrev S64x1024 : Shape := ⟨2, ![64, 1024]⟩

abbrev nBuf : Space → Nat
  | .hbm => 12
  | .vmem => 9
  | .smem => 0
  | _ => 0

abbrev bufTy : (tb : Table) → Fin (tcTables nBuf tb) → BufTy
  | .hbm, ⟨0, _⟩ => ⟨S4x8192x1, .f32⟩
  | .hbm, ⟨1, _⟩ => ⟨S4x64x8192, .f32⟩
  | .hbm, ⟨2, _⟩ => ⟨S4x4096x1, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S4x4096x1, .f32⟩
  | .hbm, ⟨7, _⟩ => ⟨S4x4096x1, .f32⟩
  | .hbm, ⟨8, _⟩ => ⟨S4x8192x1, .f32⟩
  | .hbm, ⟨9, _⟩ => ⟨S4x8192x1, .f32⟩
  | .hbm, ⟨10, _⟩ => ⟨S4x1x8192, .f32⟩
  | .hbm, ⟨11, _⟩ => ⟨S4x4096x64, .f32⟩
  | .local _ .vmem, ⟨0, _⟩ => ⟨S1x1024x1, .f32⟩
  | .local _ .vmem, ⟨1, _⟩ => ⟨S1x1024x1, .f32⟩
  | .local _ .vmem, ⟨2, _⟩ => ⟨S1x1x1024, .f32⟩
  | .local _ .vmem, ⟨3, _⟩ => ⟨S1x1x1024, .f32⟩
  | .local _ .vmem, ⟨4, _⟩ => ⟨S1x64x1024, .f32⟩
  | .local _ .vmem, ⟨5, _⟩ => ⟨S1x64x1024, .f32⟩
  | .local _ .vmem, ⟨6, _⟩ => ⟨S1x1024x64, .f32⟩
  | .local _ .vmem, ⟨7, _⟩ => ⟨S1x1024x64, .f32⟩
  | .local _ .vmem, ⟨8, _⟩ => ⟨S1024x64, .f32⟩
  | _, _ => ⟨S4x8192x1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 4, 8], ![false, false, false]⟩

def k0_cond2 (i : grid0.Coords) : BitVec 1 :=
  let arg2 : BitVec 32 := BitVec.ofNat 32 (i 2).val
  let c7_i32 : BitVec 32 := 7#32
  let v24 : BitVec 1 := Scalar.cmpi .eq arg2 c7_i32
  let v25 : BitVec 32 := Scalar.extui v24
  let c0_i32_14 : BitVec 32 := 0#32
  let v26 : BitVec 1 := Scalar.cmpi .ne v25 c0_i32_14
  v26

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1x1024x1 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x64x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S1x1024x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

class Facts₀ : Prop where
  bcast_S_S4x4096x1 : S_.BroadcastsInDim S4x4096x1 (![] : Fin 0 → Fin S4x4096x1.rank)
  bcast_S_S4x8192x1 : S_.BroadcastsInDim S4x8192x1 (![] : Fin 0 → Fin S4x8192x1.rank)
  transposes_S4x8192x1_S4x1x8192_0_2_1 : S4x8192x1.Transposes [0, 2, 1] S4x1x8192
  inb_S1024x64_S1024x64_0_0 : ∀ a, (![0, 0] : Fin 2 → Nat) a + S1024x64.size a ≤ S1024x64.size a
  h_S1024x64 : 0 < S1024x64.numel
  shapeCasts_S1024x64_S1024x64 : S1024x64.ShapeCasts S1024x64
  inb_S1x1024x1_S1x1024x1_0_0_0 : ∀ a, (![0, 0, 0] : Fin 3 → Nat) a + S1x1024x1.size a ≤ S1x1024x1.size a
  h_S1x1024x1 : 0 < S1x1024x1.numel
  shapeCasts_S1x1024x1_S1024x1 : S1x1024x1.ShapeCasts S1024x1
  inb_S1x1x1024_S1x1x1024_0_0_0 : ∀ a, (![0, 0, 0] : Fin 3 → Nat) a + S1x1x1024.size a ≤ S1x1x1024.size a
  h_S1x1x1024 : 0 < S1x1x1024.numel
  shapeCasts_S1x1x1024_S1x1024 : S1x1x1024.ShapeCasts S1x1024
  broadcasts_S1024x1_S1024x1024 : S1024x1.Broadcasts S1024x1024
  broadcasts_S1x1024_S1024x1024 : S1x1024.Broadcasts S1024x1024
  bitsLt_bf16_f32 : FTy.bits .bf16 < FTy.bits .f32
  inb_S1x64x1024_S1x64x1024_0_0_0 : ∀ a, (![0, 0, 0] : Fin 3 → Nat) a + S1x64x1024.size a ≤ S1x64x1024.size a
  h_S1x64x1024 : 0 < S1x64x1024.numel
  shapeCasts_S1x64x1024_S64x1024 : S1x64x1024.ShapeCasts S64x1024
  inb_S1x1024x64_S1x1024x64_0_0_0 : ∀ a, (![0, 0, 0] : Fin 3 → Nat) a + S1x1024x64.size a ≤ S1x1024x64.size a
  h_S1x1024x64 : 0 < S1x1024x64.numel
  shapeCasts_S1x1024x64_S1024x64 : S1x1024x64.ShapeCasts S1024x64
  shapeCasts_S1024x64_S1x1024x64 : S1024x64.ShapeCasts S1x1024x64
  dot_S1024x1024_S64x1024_S1024x64_1_1_0_0_n_n_wf : DotDims.WF S1024x1024 S64x1024 S1024x64 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x1.size a ≤ S4x4096x1.size a
  hwx0_0 : ∀ i : grid0.Coords, EltTy.bits .f32 = 32 ∨ (Rect.block (s := S4x4096x1) S1x1024x1.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x1024.size a ≤ S4x1x8192.size a
  hwx0_1 : ∀ i : grid0.Coords, EltTy.bits .f32 = 32 ∨ (Rect.block (s := S4x1x8192) S1x1x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x64x1024.size a ≤ S4x64x8192.size a
  hwx0_2 : ∀ i : grid0.Coords, EltTy.bits .f32 = 32 ∨ (Rect.block (s := S4x64x8192) S1x64x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024x64.size a ≤ S4x4096x64.size a
  hwx0_3 : ∀ i : grid0.Coords, EltTy.bits .f32 = 32 ∨ (Rect.block (s := S4x4096x64) S1x1024x64.size (cc0_transform_3 i) (hinb0_3 i)).WholeWords (EltTy.packing .f32)

variable [Facts₀]

def dot_S1024x1024_S64x1024_S1024x64_1_1_0_0_n_n : DotDims S1024x1024 S64x1024 S1024x64 where
  lhsContracting := [1]
  rhsContracting := [1]
  lhsNonContracting := [0]
  rhsNonContracting := [0]
  lhsBatch := []
  rhsBatch := []
  wf := dot_S1024x1024_S64x1024_S1024x64_1_1_0_0_n_n_wf

abbrev win0_0 : Pipeline.Window sig grid0 :=
  Pipeline.Window.ofSpec (Memref.whole main_v3) S1x1024x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v6) S1x1x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S1x64x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v7) S1x1024x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S4x8192x1 : Shape := ⟨3, ![4, 8192, 1]⟩
abbrev S4x64x8192 : Shape := ⟨3, ![4, 64, 8192]⟩
abbrev S4x4096x1 : Shape := ⟨3, ![4, 4096, 1]⟩
abbrev S_ : Shape := ⟨0, ![]⟩
abbrev S4x1x8192 : Shape := ⟨3, ![4, 1, 8192]⟩
abbrev S4x4096x8192 : Shape := ⟨3, ![4, 4096, 8192]⟩
abbrev S4x4096x64 : Shape := ⟨3, ![4, 4096, 64]⟩

abbrev nBuf : Space → Nat
  | .hbm => 19
  | .vmem => 0
  | .smem => 0
  | _ => 0

abbrev bufTy : (tb : Table) → Fin (tcTables nBuf tb) → BufTy
  | .hbm, ⟨0, _⟩ => ⟨S4x8192x1, .f32⟩
  | .hbm, ⟨1, _⟩ => ⟨S4x64x8192, .f32⟩
  | .hbm, ⟨2, _⟩ => ⟨S4x4096x1, .f32⟩
  | .hbm, ⟨3, _⟩ => ⟨S_, .f32⟩
  | .hbm, ⟨4, _⟩ => ⟨S4x1x8192, .f32⟩
  | .hbm, ⟨5, _⟩ => ⟨S4x4096x8192, .f32⟩
  | .hbm, ⟨6, _⟩ => ⟨S4x4096x8192, .f32⟩
  | .hbm, ⟨7, _⟩ => ⟨S4x4096x8192, .f32⟩
  | .hbm, ⟨8, _⟩ => ⟨S4x4096x8192, .f32⟩
  | .hbm, ⟨9, _⟩ => ⟨S_, .f32⟩
  | .hbm, ⟨10, _⟩ => ⟨S4x4096x8192, .f32⟩
  | .hbm, ⟨11, _⟩ => ⟨S4x4096x8192, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S4x4096x8192, .f32⟩
  | .hbm, ⟨16, _⟩ => ⟨S4x4096x8192, .f32⟩
  | .hbm, ⟨17, _⟩ => ⟨S4x4096x8192, .f32⟩
  | .hbm, ⟨18, _⟩ => ⟨S4x4096x64, .f32⟩
  | _, _ => ⟨S4x8192x1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩

abbrev nD : Nat := 1
abbrev τ : Topo := Topo.v7x

variable {F : FTy → Type} [FloatOps F]

class Facts₀ : Prop where
  transposes_S4x8192x1_S4x1x8192_0_2_1 : S4x8192x1.Transposes [0, 2, 1] S4x1x8192
  bcast_S4x4096x1_S4x4096x8192_0_1_2 : S4x4096x1.BroadcastsInDim S4x4096x8192 (![0, 1, 2] : Fin 3 → Fin S4x4096x8192.rank)
  bcast_S4x1x8192_S4x4096x8192_0_1_2 : S4x1x8192.BroadcastsInDim S4x4096x8192 (![0, 1, 2] : Fin 3 → Fin S4x4096x8192.rank)
  bcast_S_S4x4096x8192 : S_.BroadcastsInDim S4x4096x8192 (![] : Fin 0 → Fin S4x4096x8192.rank)
  dot_S4x4096x8192_S4x64x8192_S4x4096x64_2_2_1_1_0_0_wf : DotDims.WF S4x4096x8192 S4x64x8192 S4x4096x64 [2] [2] [1] [1] [0] [0]

variable [Facts₀]

def dot_S4x4096x8192_S4x64x8192_S4x4096x64_2_2_1_1_0_0 : DotDims S4x4096x8192 S4x64x8192 S4x4096x64 where
  lhsContracting := [2]
  rhsContracting := [2]
  lhsNonContracting := [1]
  rhsNonContracting := [1]
  lhsBatch := [0]
  rhsBatch := [0]
  wf := dot_S4x4096x8192_S4x64x8192_S4x4096x64_2_2_1_1_0_0_wf

class Facts : Prop extends Facts₀ where

variable [Facts]
-- ==== Proof.Found.lean ====
/-
  What one grid point leaves behind, as values.

  The body at a grid point (b, n, j) — batch b, row tile n, column tile j of the reduction axis — loads the three
  input tiles, forms the tile's contribution, and adds it into an accumulator kept between points; at j = 0 it first
  clears the accumulator, and at j = 7 it copies the accumulator to the output tile.  So, with `step` the map
  `acc ↦ acc + weights(x tile, grid tile) · features tile` and `zero` the cleared accumulator:
    first point of a run  (j = 0):      the accumulator ends at `step zero`;
    a middle point        (0 < j < 7):  at `step acc`, `acc` what the point before left;
    the last point        (j = 7):      at `step acc`, and the output tile ends at that same value, re-shaped.
  Each is the one whole-buffer store that covers the buffer last, its loads reading the whole staging buffers.
-/
import proofs.«138742_j858993459737_1_alg».proof.Proof.Gen.KernelIdeal.Frame
import Idealize.ShloMosaic.Lib.Pipeline.Value
import Idealize.ShloMosaic.Lib.Tactic

set_option pp.maxSteps 8000
set_option pp.deepTerms false

noncomputable section

open Idealize.ShloMosaic Idealize.ShloMosaic.TcCoe Idealize.SL.Sem

namespace Cert.SetConv.Found

open Cert.KernelIdeal Cert.KernelIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- A middle point leaves the accumulator at one more step over what it found. -/
theorem acc_middle (c : Dev nD) (i : grid0.Coords) (arg3 : Memref sig .tc .vmem S1x1024x1 .f32) (harg3 : arg3.IsWhole) (arg4 : Memref sig .tc .vmem S1x1x1024 .f32) (harg4 : arg4.IsWhole) (arg5 : Memref sig .tc .vmem S1x64x1024 .f32) (harg5 : arg5.IsWhole) (arg6 : Memref sig .tc .vmem S1x1024x64 .f32) (harg6 : arg6.IsWhole) (arg7 : Memref sig .tc .vmem S1024x64 .f32) (harg7 : arg7.IsWhole) (hc0 : ¬cond0_0 i) (hc1 : ¬cond0_1 i)
    (x0 : Vec F S1x1024x1 .f32) (x1 : Vec F S1x1x1024 .f32) (x2 : Vec F S1x64x1024 .f32) (xs0 : Vec F S1024x64 .f32) :
    sout0_B_0 c i arg3 harg3 arg4 harg4 arg5 harg5 arg6 harg6 arg7 harg7 hc0 hc1 x0 x1 x2 xs0 = k0_pay2 x0 x1 x2 xs0 := by
  unfold sout0_B_0
  rw [View.read_writes_eq_canon _ _ _ (scover0_B_0 c i arg3 harg3 arg4 harg4 arg5 harg5 arg6 harg6 arg7 harg7 hc0 hc1 x0 x1 x2 xs0)]
  unfold kernelRun0_B
  dsimp only
  sl_unfold_words
  rw [View.canon_unit_zero hz2]
  simp only [View.readAt_eq_ld, harg3.read_unread, harg4.read_unread, harg5.read_unread, harg6.read_unread, harg7.read_unread,
    View.ld_unit_zero (S := S1x1024x1) hz3, View.ld_unit_zero (S := S1x1x1024) hz3, View.ld_unit_zero (S := S1x64x1024) hz3,
    View.ld_unit_zero (S := S1x1024x64) hz3, View.ld_unit_zero (S := S1024x64) hz2]

/-- The last point of a run leaves the accumulator at one more step over what it found … -/
theorem acc_last (c : Dev nD) (i : grid0.Coords) (arg3 : Memref sig .tc .vmem S1x1024x1 .f32) (harg3 : arg3.IsWhole) (arg4 : Memref sig .tc .vmem S1x1x1024 .f32) (harg4 : arg4.IsWhole) (arg5 : Memref sig .tc .vmem S1x64x1024 .f32) (harg5 : arg5.IsWhole) (arg6 : Memref sig .tc .vmem S1x1024x64 .f32) (harg6 : arg6.IsWhole) (arg7 : Memref sig .tc .vmem S1024x64 .f32) (harg7 : arg7.IsWhole) (hc0 : ¬cond0_0 i) (hc1 : cond0_1 i)
    (x0 : Vec F S1x1024x1 .f32) (x1 : Vec F S1x1x1024 .f32) (x2 : Vec F S1x64x1024 .f32) (xs0 : Vec F S1024x64 .f32) :
    sout0_C_0 c i arg3 harg3 arg4 harg4 arg5 harg5 arg6 harg6 arg7 harg7 hc0 hc1 x0 x1 x2 xs0 = k0_pay2 x0 x1 x2 xs0 := by
  unfold sout0_C_0
  rw [View.read_writes_eq_canon _ _ _ (scover0_C_0 c i arg3 harg3 arg4 harg4 arg5 harg5 arg6 harg6 arg7 harg7 hc0 hc1 x0 x1 x2 xs0)]
  unfold kernelRun0_C
  dsimp only
  sl_unfold_words
  rw [View.canon_unit_zero hz2]
  simp only [View.readAt_eq_ld, harg3.read_unread, harg4.read_unread, harg5.read_unread, harg6.read_unread, harg7.read_unread,
    View.ld_unit_zero (S := S1x1024x1) hz3, View.ld_unit_zero (S := S1x1x1024) hz3, View.ld_unit_zero (S := S1x64x1024) hz3,
    View.ld_unit_zero (S := S1x1024x64) hz3, View.ld_unit_zero (S := S1024x64) hz2]

/-- … and the output tile at that value, re-shaped with a leading unit axis: it is read back from the accumulator the
    same point has just stored. -/
theorem out_last (c : Dev nD) (i : grid0.Coords) (arg3 : Memref sig .tc .vmem S1x1024x1 .f32) (harg3 : arg3.IsWhole) (arg4 : Memref sig .tc .vmem S1x1x1024 .f32) (harg4 : arg4.IsWhole) (arg5 : Memref sig .tc .vmem S1x64x1024 .f32) (harg5 : arg5.IsWhole) (arg6 : Memref sig .tc .vmem S1x1024x64 .f32) (harg6 : arg6.IsWhole) (arg7 : Memref sig .tc .vmem S1024x64 .f32) (harg7 : arg7.IsWhole) (hc0 : ¬cond0_0 i) (hc1 : cond0_1 i)
    (x0 : Vec F S1x1024x1 .f32) (x1 : Vec F S1x1x1024 .f32) (x2 : Vec F S1x64x1024 .f32) (xs0 : Vec F S1024x64 .f32) :
    out0_C_3 c i arg3 harg3 arg4 harg4 arg5 harg5 arg6 harg6 arg7 harg7 hc0 hc1 x0 x1 x2 xs0 = k0_pay3 (k0_pay2 x0 x1 x2 xs0) := by
  unfold out0_C_3
  rw [View.read_writes_eq_canon _ _ _ (cover0_C_3 c i arg3 harg3 arg4 harg4 arg5 harg5 arg6 harg6 arg7 harg7 hc0 hc1 x0 x1 x2 xs0)]
  unfold kernelRun0_C
  dsimp only
  sl_unfold_words
  rw [View.canon_unit_zero hz3, View.readCov_unit_zero (S := S1024x64) _ hz2]
  simp only [View.readAt_eq_ld, harg3.read_unread, harg4.read_unread, harg5.read_unread, harg6.read_unread, harg7.read_unread,
    View.ld_unit_zero (S := S1x1024x1) hz3, View.ld_unit_zero (S := S1x1x1024) hz3, View.ld_unit_zero (S := S1x64x1024) hz3,
    View.ld_unit_zero (S := S1x1024x64) hz3, View.ld_unit_zero (S := S1024x64) hz2]

/-- The first point of a run clears the accumulator, reads it back, and leaves one step over the cleared one. -/
theorem acc_first (c : Dev nD) (i : grid0.Coords) (arg3 : Memref sig .tc .vmem S1x1024x1 .f32) (harg3 : arg3.IsWhole) (arg4 : Memref sig .tc .vmem S1x1x1024 .f32) (harg4 : arg4.IsWhole) (arg5 : Memref sig .tc .vmem S1x64x1024 .f32) (harg5 : arg5.IsWhole) (arg6 : Memref sig .tc .vmem S1x1024x64 .f32) (harg6 : arg6.IsWhole) (arg7 : Memref sig .tc .vmem S1024x64 .f32) (harg7 : arg7.IsWhole) (hc0 : cond0_0 i) (hc1 : ¬cond0_1 i)
    (x0 : Vec F S1x1024x1 .f32) (x1 : Vec F S1x1x1024 .f32) (x2 : Vec F S1x64x1024 .f32) :
    sout0_A_0 c i arg3 harg3 arg4 harg4 arg5 harg5 arg6 harg6 arg7 harg7 hc0 hc1 x0 x1 x2 = k0_pay2 x0 x1 x2 (k0_pay1 (F := F)) := by
  unfold sout0_A_0
  rw [View.read_writes_eq_canon _ _ _ (scover0_A_0 c i arg3 harg3 arg4 harg4 arg5 harg5 arg6 harg6 arg7 harg7 hc0 hc1 x0 x1 x2)]
  unfold kernelRun0_A
  dsimp only
  sl_unfold_words
  rw [View.canon_cons_unit_zero (S := S1024x64) hz2, View.readCov_unit_zero (S := S1024x64) _ hz2]
  simp only [View.readAt_eq_ld, harg3.read_unread, harg4.read_unread, harg5.read_unread, harg6.read_unread, harg7.read_unread,
    View.ld_unit_zero (S := S1x1024x1) hz3, View.ld_unit_zero (S := S1x1x1024) hz3, View.ld_unit_zero (S := S1x64x1024) hz3,
    View.ld_unit_zero (S := S1x1024x64) hz3, View.ld_unit_zero (S := S1024x64) hz2]

end Cert.SetConv.Found

end
-- ==== Proof.LibColumnBroadcast.lean ====
/-
  A column broadcast over many columns, read at coordinates.

  `broadcastTo_a1_ab_apply`: an `[a, 1]` array broadcast to `[a, b]` reads, at `(p, c)`, the column's entry at row
  `p` — the companion of the library's one-row form `broadcastTo_1b_ab_apply` (`[1, b]` to `[a, b]`), stated the
  same way over indices built from their coordinates, so that it applies to a printed broadcast by unification.
-/
import Idealize.ShloMosaic.Lib.ValueLayout

namespace Idealize.ShloMosaic.ValueIdx

open Idealize.ShloMosaic

variable {α : Type}

/-- An `[a, 1]` array broadcast to `[a, b]` reads, at `(p, c)`, the operand's one column at row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ValueIdx
-- ==== Proof.StepAt.lean ====
/-
  One grid point's step, read at an entry, on the extended reals.

  For the tile of query positions `xq` [1,1024,1], the tile of grid positions `xg` [1,1,1024], the tile of
  features `zt` [1,64,1024] and an accumulator `acc` [1024,64], the step's result at (row r, channel ch) is
      acc(r, ch) + Σ_{k < 1024}  exp( (-0.5 · (xq(r) - xg(k))) · (xq(r) - xg(k)) ) · zt(ch, k):
  the subtraction broadcasts the column of query positions against the row of grid positions, the weights are
  elementwise, the two roundings to bf16 are the identity on the extended reals, and the matrix product into a zero
  accumulator, contracting the second axis of both operands, is the plain sum over that axis.
  The cleared accumulator is zero everywhere, and the copy to the output tile only adds a leading unit axis.
-/
import proofs.«138742_j858993459737_1_alg».proof.Proof.Gen.KernelIdeal.Skeleton
import proofs.«138742_j858993459737_1_alg».proof.Proof.LibColumnBroadcast
import Idealize.ShloMosaic.Lib.ValueIdx
import Idealize.ShloMosaic.Lib.ValueLayout
import Idealize.ShloMosaic.PureOps.Ideal.Laws

noncomputable section

open Idealize.ShloMosaic Idealize.ShloMosaic.ValueIdx

namespace Cert.SetConv

open Cert.KernelIdeal Cert.KernelIdeal.Gen

/-- The weight of query row `r` against grid column `k` of one tile pair: `exp((-0.5 · d) · d)`, `d` their difference. -/
def tileWeight (xq : Vec Ideal S1x1024x1 .f32) (xg : Vec Ideal S1x1x1024 .f32) (r k : Fin 1024) : EReal :=
  Ideal.exp ((Ideal.ofBits .f32 0xBF000000#32 * (xq (ix3 (0 : Fin 1) r (0 : Fin 1)) - xg (ix3 (0 : Fin 1) (0 : Fin 1) k)))
    * (xq (ix3 (0 : Fin 1) r (0 : Fin 1)) - xg (ix3 (0 : Fin 1) (0 : Fin 1) k)))

/-- The column of query positions, spread over the tile's columns, reads the position of its row. -/
theorem queryColumn_apply (xq : Vec Ideal S1x1024x1 .f32) (r k : Fin 1024) :
    broadcastTo S1024x1024 (shapeCast S1024x1 xq shapeCasts_S1x1024x1_S1024x1) broadcasts_S1024x1_S1024x1024 (ix2 r k)
      = xq (ix3 (0 : Fin 1) r (0 : Fin 1)) :=
  (broadcastTo_a1_ab_apply _ broadcasts_S1024x1_S1024x1024 r k).trans
    (shapeCast_1ab_ab_apply xq shapeCasts_S1x1024x1_S1024x1 r (0 : Fin 1))

/-- The row of grid positions, spread over the tile's rows, reads the position of its column. -/
theorem gridRow_apply (xg : Vec Ideal S1x1x1024 .f32) (r k : Fin 1024) :
    broadcastTo S1024x1024 (shapeCast S1x1024 xg shapeCasts_S1x1x1024_S1x1024) broadcasts_S1x1024_S1024x1024 (ix2 r k)
      = xg (ix3 (0 : Fin 1) (0 : Fin 1) k) :=
  (broadcastTo_1b_ab_apply _ broadcasts_S1x1024_S1024x1024 r k).trans
    (shapeCast_1ab_ab_apply xg shapeCasts_S1x1x1024_S1x1024 (0 : Fin 1) k)

/-- The features tile without its leading unit axis. -/
theorem features_apply (zt : Vec Ideal S1x64x1024 .f32) (ch : Fin 64) (k : Fin 1024) :
    shapeCast S64x1024 zt shapeCasts_S1x64x1024_S64x1024 (ix2 ch k) = zt (ix3 (0 : Fin 1) ch k) :=
  shapeCast_1ab_ab_apply zt shapeCasts_S1x64x1024_S64x1024 ch k

/-- The product's left operand index at output (r, ch) and contraction position q: row r … -/
theorem lhs_row (j : S1024x64.Idx) (q : dot_S1024x1024_S64x1024_S1024x64_1_1_0_0_n_n.contr.Idx) : (dot_S1024x1024_S64x1024_S1024x64_1_1_0_0_n_n.lhsIdx j q 0).val = (j 0).val := by
  unfold DotDims.lhsIdx
  rw [dif_neg (show ¬(0 : Fin S1024x1024.rank) ∈ dot_S1024x1024_S64x1024_S1024x64_1_1_0_0_n_n.lhsBatch by decide),
    dif_pos (show (0 : Fin S1024x1024.rank) ∈ dot_S1024x1024_S64x1024_S1024x64_1_1_0_0_n_n.lhsNonContracting by decide)]
  rfl
/-- … column q; -/
theorem lhs_col (j : S1024x64.Idx) (q : dot_S1024x1024_S64x1024_S1024x64_1_1_0_0_n_n.contr.Idx) : (dot_S1024x1024_S64x1024_S1024x64_1_1_0_0_n_n.lhsIdx j q 1).val = (q ⟨0, by decide⟩).val :=
  dot_S1024x1024_S64x1024_S1024x64_1_1_0_0_n_n.lhsIdx_val_of_single rfl j q
/-- the right operand's: row ch … -/
theorem rhs_row (j : S1024x64.Idx) (q : dot_S1024x1024_S64x1024_S1024x64_1_1_0_0_n_n.contr.Idx) : (dot_S1024x1024_S64x1024_S1024x64_1_1_0_0_n_n.rhsIdx j q 0).val = (j 1).val := by
  unfold DotDims.rhsIdx
  rw [dif_neg (show ¬(0 : Fin S64x1024.rank) ∈ dot_S1024x1024_S64x1024_S1024x64_1_1_0_0_n_n.rhsBatch by decide),
    dif_pos (show (0 : Fin S64x1024.rank) ∈ dot_S1024x1024_S64x1024_S1024x64_1_1_0_0_n_n.rhsNonContracting by decide)]
  rfl
/-- … column q. -/
theorem rhs_col (j : S1024x64.Idx) (q : dot_S1024x1024_S64x1024_S1024x64_1_1_0_0_n_n.contr.Idx) : (dot_S1024x1024_S64x1024_S1024x64_1_1_0_0_n_n.rhsIdx j q 1).val = (q ⟨0, by decide⟩).val :=
  dot_S1024x1024_S64x1024_S1024x64_1_1_0_0_n_n.rhsIdx_val_of_single rfl j q

/-- An accumulator plus the matrix product, into zero, of a [1024,1024] and a [64,1024] matrix contracting the second
    axis of both: at (r, ch) the accumulator there plus the sum over k of the products of the entries (r, k) and (ch, k). -/
theorem acc_add_product_apply (W : FVec Ideal S1024x1024 .bf16) (Z : FVec Ideal S64x1024 .bf16) (acc : FVec Ideal S1024x64 .f32)
    (r : Fin 1024) (ch : Fin 64) :
    shapeCast S1024x64 (addf acc (matmul dot_S1024x1024_S64x1024_S1024x64_1_1_0_0_n_n none W Z (constant S1024x64 .f32 0x00000000#32)))
        shapeCasts_S1024x64_S1024x64 (ix2 r ch)
      = acc (ix2 r ch) + ∑ k : Fin 1024, W (ix2 r k) * Z (ix2 ch k) := by
  rw [shapeCast_self]
  show acc (ix2 r ch) + FloatOps.matmul dot_S1024x1024_S64x1024_S1024x64_1_1_0_0_n_n none W Z (constant S1024x64 .f32 0x00000000#32) (ix2 r ch) = _
  rw [Ideal.matmul_constant_zero_apply,
    ← Equiv.sum_comp (contrEquiv1 dot_S1024x1024_S64x1024_S1024x64_1_1_0_0_n_n 1024 rfl rfl).symm]
  refine congrArg (acc (ix2 r ch) + ·) (Finset.sum_congr rfl fun k _ => ?_)
  have hk := contrEquiv1_symm_val dot_S1024x1024_S64x1024_S1024x64_1_1_0_0_n_n 1024 rfl rfl k
  have el : dot_S1024x1024_S64x1024_S1024x64_1_1_0_0_n_n.lhsIdx (ix2 r ch) ((contrEquiv1 dot_S1024x1024_S64x1024_S1024x64_1_1_0_0_n_n 1024 rfl rfl).symm k) = ix2 r k := funext fun a => Fin.ext (by
    match a with
    | ⟨0, _⟩ => exact lhs_row _ _
    | ⟨1, _⟩ => exact (lhs_col _ _).trans hk)
  have er : dot_S1024x1024_S64x1024_S1024x64_1_1_0_0_n_n.rhsIdx (ix2 r ch) ((contrEquiv1 dot_S1024x1024_S64x1024_S1024x64_1_1_0_0_n_n 1024 rfl rfl).symm k) = ix2 ch k := funext fun a => Fin.ext (by
    match a with
    | ⟨0, _⟩ => exact rhs_row _ _
    | ⟨1, _⟩ => exact (rhs_col _ _).trans hk)
  rw [el, er]

/-- THE STEP at an entry: the accumulator there plus the tile's weighted sum of features. -/
theorem step_apply (xq : Vec Ideal S1x1024x1 .f32) (xg : Vec Ideal S1x1x1024 .f32) (zt : Vec Ideal S1x64x1024 .f32)
    (acc : Vec Ideal S1024x64 .f32) (r : Fin 1024) (ch : Fin 64) :
    k0_pay2 xq xg zt acc (ix2 r ch)
      = acc (ix2 r ch) + ∑ k : Fin 1024, tileWeight xq xg r k * zt (ix3 (0 : Fin 1) ch k) := by
  unfold k0_pay2
  refine (acc_add_product_apply _ _ acc r ch).trans ?_
  refine congrArg (acc (ix2 r ch) + ·) (Finset.sum_congr rfl fun k _ => ?_)
  unfold tileWeight
  rw [← queryColumn_apply xq r k, ← gridRow_apply xg r k, ← features_apply zt ch k]
  rfl

/-- The cleared accumulator is zero at every entry. -/
theorem cleared_apply (j : S1024x64.Idx) : k0_pay1 (F := Ideal) j = 0 := by
  unfold k0_pay1
  rw [shapeCast_self]
  exact Ideal.ofBits_zero_f32

/-- The copy to the output tile reads the accumulator, past the leading unit axis. -/
theorem copied_apply (v : Vec Ideal S1024x64 .f32) (u : Fin 1) (r : Fin 1024) (ch : Fin 64) :
    k0_pay3 v (ix3 u r ch) = v (ix2 r ch) := by
  unfold k0_pay3
  exact shapeCast_ab_1ab_apply v shapeCasts_S1024x64_S1x1024x64 u r ch

end Cert.SetConv

end
-- ==== Proof.Partial.lean ====
/-
  The accumulator after any grid point: a partial sum over column tiles.

  Grid points come in runs of eight (the column tiles j = 0 … 7 of one batch and row tile).  The first point of a run
  clears the accumulator and adds its tile's contribution; every later point adds its own.  So after point
  `t = 8·q + j` the accumulator's entry (r, ch) is the sum of the contributions of points `8·q, …, 8·q + j` at
  (r, ch) — by induction along the run, never by listing the 128 points — where point `n`'s contribution is
      Σ_{k < 1024}  weight(query tile row r, grid tile column k) · features tile (ch, k).
-/
import proofs.«138742_j858993459737_1_alg».proof.Proof.Gen.KernelIdeal.Value
import proofs.«138742_j858993459737_1_alg».proof.Proof.Found
import proofs.«138742_j858993459737_1_alg».proof.Proof.StepAt

noncomputable section

open Idealize.ShloMosaic Idealize.ShloMosaic.TcCoe Idealize.ShloMosaic.ValueIdx Idealize.SL.Sem

namespace Cert.SetConv

open Cert.KernelIdeal Cert.KernelIdeal.Gen
open scoped BigOperators

variable (m : (ℓ : Loc nD τ sig) → Buf (Elt Ideal) ℓ)

/-- Grid point `n`'s contribution to entry (r, ch) of its run's accumulator (zero for a number past the grid). -/
def tileTerm (c : Dev nD) (n : ℕ) (r : Fin 1024) (ch : Fin 64) : EReal :=
  if h : n < cfg0.N then
    ∑ k : Fin 1024, tileWeight (iblk m c 0 ⟨n, h⟩) (iblk m c 1 ⟨n, h⟩) r k
      * (iblk m c 2 ⟨n, h⟩ : Vec Ideal S1x64x1024 .f32) (ix3 (0 : Fin 1) ch k)
  else 0

theorem tileTerm_of_lt (c : Dev nD) (n : ℕ) (h : n < cfg0.N) (r : Fin 1024) (ch : Fin 64) :
    tileTerm m c n r ch = ∑ k : Fin 1024, tileWeight (iblk m c 0 ⟨n, h⟩) (iblk m c 1 ⟨n, h⟩) r k
      * (iblk m c 2 ⟨n, h⟩ : Vec Ideal S1x64x1024 .f32) (ix3 (0 : Fin 1) ch k) := dif_pos h

/-- The first point of a run leaves its own contribution (over the cleared accumulator), whatever was there before. -/
theorem first_apply (c : Dev nD) (n : ℕ) (h : n < cfg0.N) (h0 : n % 8 = 0) (h1 : ¬n % 8 = 7)
    (before : Vec Ideal S1024x64 .f32) (r : Fin 1024) (ch : Fin 64) :
    Value.scAt0_0 m c n h before (ix2 r ch) = 0 + tileTerm m c n r ch := by
  unfold Value.scAt0_0
  rw [dif_pos h0, dif_neg h1, Found.acc_first, step_apply, cleared_apply, tileTerm_of_lt m c n h]

/-- A later point of a run adds its contribution to what the point before left. -/
theorem later_apply (c : Dev nD) (n : ℕ) (h : n < cfg0.N) (h0 : ¬n % 8 = 0)
    (acc : Vec Ideal S1024x64 .f32) (r : Fin 1024) (ch : Fin 64) :
    Value.scAt0_0 m c n h acc (ix2 r ch) = acc (ix2 r ch) + tileTerm m c n r ch := by
  unfold Value.scAt0_0
  rw [dif_neg h0]
  by_cases h1 : n % 8 = 7
  · rw [dif_pos h1, Found.acc_last, step_apply, tileTerm_of_lt m c n h]
  · rw [dif_neg h1, Found.acc_middle, step_apply, tileTerm_of_lt m c n h]

/-- THE ACCUMULATOR after point `t`: the sum of the contributions of its run's points up to `t`. -/
theorem acc_after (c : Dev nD) (t : Fin cfg0.N) (r : Fin 1024) (ch : Fin 64) :
    (outsAt0 m c t.val t.isLt).2 (ix2 r ch)
      = ∑ s ∈ Finset.range (t.val % 8 + 1), tileTerm m c (8 * (t.val / 8) + s) r ch := by
  have hN : cfg0.N = 128 := N_0
  have ht := t.isLt
  rw [Value.soutsAt0_0_eq m c t]
  have key := Pipeline.accAt_add_apply (N := cfg0.N) (ι := S1024x64.Idx) (β := EReal)
    (a := fun n h => Value.scAt0_0 m c n h (VS0_0.read (Elt Ideal) VS0_0.junk)) (g := Value.scAt0_0 m c)
    (Z := fun _ => (0 : EReal)) (M := fun n i => tileTerm m c n (i 0) (i 1)) (b := 8 * (t.val / 8)) (e := 7)
    (fun h i => by
      obtain ⟨r', ch', rfl⟩ : ∃ (r' : Fin 1024) (ch' : Fin 64), i = ix2 r' ch' := ⟨i 0, i 1, eq_ix2 i⟩
      exact first_apply m c _ h (by omega) (by omega) _ r' ch')
    (fun n h acc i hlo hhi => by
      obtain ⟨r', ch', rfl⟩ : ∃ (r' : Fin 1024) (ch' : Fin 64), i = ix2 r' ch' := ⟨i 0, i 1, eq_ix2 i⟩
      exact later_apply m c n h (by omega) acc r' ch')
    (t.val % 8) (by omega) (by omega) (ix2 r ch)
  refine key.trans ?_
  show (0 : EReal) + ∑ s ∈ Finset.range (t.val % 8 + 1), tileTerm m c (8 * (t.val / 8) + s) r ch = _
  rw [zero_add]

end Cert.SetConv

end
-- ==== Proof.Tiles.lean ====
/-
  Where a grid point's tiles sit in the whole arrays.

  The grid is [4, 4, 8] in row-major order: point `t` is batch `t / 32`, row tile `t / 8 % 4`, column tile `t % 8`.
  At that point the query tile is rows `1024 · (t / 8 % 4) …` of the batch's scaled query positions, the grid tile and
  the features tile are columns `1024 · (t % 8) …` of the batch's scaled grid positions and features, and the output
  tile is rows `1024 · (t / 8 % 4) …` of the batch's result.  A tile's entry at a block coordinate is the array's entry
  at block index × block size + that coordinate, axis by axis.
-/
import proofs.«138742_j858993459737_1_alg».proof.Proof.Gen.KernelIdeal.Frame.Runs
import Idealize.ShloMosaic.Lib.Pipeline.Value
import Idealize.ShloMosaic.Lib.ValueIdx

noncomputable section

open Idealize.ShloMosaic Idealize.ShloMosaic.TcCoe Idealize.ShloMosaic.ValueIdx Idealize.SL.Sem

namespace Cert.SetConv

open Cert.KernelIdeal Cert.KernelIdeal.Gen

variable (m : (ℓ : Loc nD τ sig) → Buf (Elt Ideal) ℓ)

/-- The four windows' block indices at every grid point, decided once over the 128 points. -/
theorem tile_indices : ∀ t : Fin cfg0.N,
    win0_0.index t (0 : Fin 3) = t.val / 32 ∧ win0_0.index t (1 : Fin 3) = t.val / 8 % 4 ∧ win0_0.index t (2 : Fin 3) = 0
    ∧ win0_1.index t (0 : Fin 3) = t.val / 32 ∧ win0_1.index t (1 : Fin 3) = 0 ∧ win0_1.index t (2 : Fin 3) = t.val % 8
    ∧ win0_2.index t (0 : Fin 3) = t.val / 32 ∧ win0_2.index t (1 : Fin 3) = 0 ∧ win0_2.index t (2 : Fin 3) = t.val % 8
    ∧ win0_3.index t (0 : Fin 3) = t.val / 32 ∧ win0_3.index t (1 : Fin 3) = t.val / 8 % 4 ∧ win0_3.index t (2 : Fin 3) = 0 :=
  (by decide +kernel : ∀ t : Fin grid0.N, _)

/-- The query tile's row `r` is row `1024 · (t / 8 % 4) + r` of batch `t / 32` of the scaled query positions. -/
theorem queryTile_apply (c : Dev nD) (t : Fin cfg0.N) (r : Fin 1024) (b : Fin 4) (n : Fin 4096)
    (hb : b.val = t.val / 32) (hn : n.val = 1024 * (t.val / 8 % 4) + r.val) :
    (iblk m c 0 t : Vec Ideal S1x1024x1 .f32) (ix3 (0 : Fin 1) r (0 : Fin 1))
      = (V m c main_v3 : FVec Ideal S4x4096x1 .f32) (ix3 b n (0 : Fin 1)) := by
  obtain ⟨e0, e1, e2, -⟩ := tile_indices t
  unfold iblk
  rw [View.read_apply]
  show V m c main_v3 _ = V m c main_v3 _
  refine congrArg (V m c main_v3) (funext fun a => Fin.ext ?_)
  match a with
  | ⟨0, _⟩ => show win0_0.index t (0 : Fin 3) * 1 + 1 * 0 = b.val; omega
  | ⟨1, _⟩ => show win0_0.index t (1 : Fin 3) * 1024 + 1 * r.val = n.val; omega
  | ⟨2, _⟩ => show win0_0.index t (2 : Fin 3) * 1 + 1 * 0 = 0; omega

/-- The grid tile's column `k` is column `1024 · (t % 8) + k` of batch `t / 32` of the scaled grid positions. -/
theorem gridTile_apply (c : Dev nD) (t : Fin cfg0.N) (k : Fin 1024) (b : Fin 4) (M : Fin 8192)
    (hb : b.val = t.val / 32) (hM : M.val = 1024 * (t.val % 8) + k.val) :
    (iblk m c 1 t : Vec Ideal S1x1x1024 .f32) (ix3 (0 : Fin 1) (0 : Fin 1) k)
      = (V m c main_v6 : FVec Ideal S4x1x8192 .f32) (ix3 b (0 : Fin 1) M) := by
  obtain ⟨-, -, -, e0, e1, e2, -⟩ := tile_indices t
  unfold iblk
  rw [View.read_apply]
  show V m c main_v6 _ = V m c main_v6 _
  refine congrArg (V m c main_v6) (funext fun a => Fin.ext ?_)
  match a with
  | ⟨0, _⟩ => show win0_1.index t (0 : Fin 3) * 1 + 1 * 0 = b.val; omega
  | ⟨1, _⟩ => show win0_1.index t (1 : Fin 3) * 1 + 1 * 0 = 0; omega
  | ⟨2, _⟩ => show win0_1.index t (2 : Fin 3) * 1024 + 1 * k.val = M.val; omega

/-- The features tile's entry (ch, k) is entry (ch, `1024 · (t % 8) + k`) of batch `t / 32` of the features, which no
    operation before the region touches. -/
theorem featureTile_apply (c : Dev nD) (t : Fin cfg0.N) (ch : Fin 64) (k : Fin 1024) (b : Fin 4) (M : Fin 8192)
    (hb : b.val = t.val / 32) (hM : M.val = 1024 * (t.val % 8) + k.val) :
    (iblk m c 2 t : Vec Ideal S1x64x1024 .f32) (ix3 (0 : Fin 1) ch k)
      = (m ((c : Thread nD τ).loc main_arg1) : FVec Ideal S4x64x8192 .f32) (ix3 b ch M) := by
  obtain ⟨-, -, -, -, -, -, e0, e1, e2, -⟩ := tile_indices t
  rw [← V_main_arg1 m c]
  unfold iblk
  rw [View.read_apply]
  show V m c main_arg1 _ = V m c main_arg1 _
  refine congrArg (V m c main_arg1) (funext fun a => Fin.ext ?_)
  match a with
  | ⟨0, _⟩ => show win0_2.index t (0 : Fin 3) * 1 + 1 * 0 = b.val; omega
  | ⟨1, _⟩ => show win0_2.index t (1 : Fin 3) * 64 + 1 * ch.val = ch.val; omega
  | ⟨2, _⟩ => show win0_2.index t (2 : Fin 3) * 1024 + 1 * k.val = M.val; omega

end Cert.SetConv

end
-- ==== Proof.Prescale.lean ====
/-
  The two position arrays as the kernel's region finds them: each position times `exp (-L)`.

  Before the region the program negates the log-bandwidth `L`, exponentiates, and multiplies both position arrays by
  that one number; the grid positions [4,8192,1] are then transposed to [4,1,8192].  Read at an entry:
      queries'(b, n, 0) = x(b, n, 0)  · exp (-L),        grid'(b, 0, k) = xz(b, k, 0) · exp (-L).
-/
import proofs.«138742_j858993459737_1_alg».proof.Proof.Gen.KernelIdeal.Frame.Runs
import Idealize.ShloMosaic.Lib.StableHlo.Run
import Idealize.ShloMosaic.Lib.ValueIdx
import Idealize.ShloMosaic.Lib.ValueLayout

noncomputable section

open Idealize.ShloMosaic Idealize.ShloMosaic.TcCoe Idealize.ShloMosaic.ValueIdx Idealize.SL.Sem Idealize.ShloMosaic.StableHlo

namespace Cert.SetConv

open Cert.KernelIdeal Cert.KernelIdeal.Gen

variable (m : (ℓ : Loc nD τ sig) → Buf (Elt Ideal) ℓ)

/-- The four argument arrays at launch, as arrays of extended reals: grid positions, features, query positions, and
    the log-bandwidth. -/
abbrev gridPos (c : Dev nD) : FVec Ideal S4x8192x1 .f32 := m ((c : Thread nD τ).loc main_arg0)
abbrev features (c : Dev nD) : FVec Ideal S4x64x8192 .f32 := m ((c : Thread nD τ).loc main_arg1)
abbrev queryPos (c : Dev nD) : FVec Ideal S4x4096x1 .f32 := m ((c : Thread nD τ).loc main_arg2)
abbrev logBandwidth (c : Dev nD) : FVec Ideal S_ .f32 := m ((c : Thread nD τ).loc main_arg3)

/-- The scaled query positions, as a term of the launch contents. -/
theorem scaledQueries_eq (c : Dev nD) :
    (V m c main_v3 : FVec Ideal S4x4096x1 .f32)
      = mulf (queryPos m c) (broadcastInDim S4x4096x1 ![] bcast_S_S4x4096x1 (Host.exp (Host.negf (logBandwidth m c)))) := by
  dsimp only [V, hostOps0]; after_results

/-- The scaled, transposed grid positions, as a term of the launch contents. -/
theorem scaledGrid_eq (c : Dev nD) :
    (V m c main_v6 : FVec Ideal S4x1x8192 .f32)
      = transpose S4x1x8192 [0, 2, 1] (mulf (gridPos m c)
          (broadcastInDim S4x8192x1 ![] bcast_S_S4x8192x1 (Host.exp (Host.negf (logBandwidth m c)))))
          transposes_S4x8192x1_S4x1x8192_0_2_1 := by
  dsimp only [V, hostOps0]; after_results

/-- A scaled query position is the position times `exp (-L)`. -/
theorem scaledQueries_apply (c : Dev nD) (b : Fin 4) (n : Fin 4096) :
    (V m c main_v3 : FVec Ideal S4x4096x1 .f32) (ix3 b n (0 : Fin 1))
      = queryPos m c (ix3 b n (0 : Fin 1)) * Ideal.exp (-(logBandwidth m c ix0)) := by
  rw [scaledQueries_eq]
  refine (mulf_apply _ _ _).trans ?_
  rw [broadcastInDim_apply _ bcast_S_S4x4096x1 _ (ix3 b n (0 : Fin 1)) ix0 (fun a => a.elim0)]
  rfl

/-- A scaled grid position is the position times `exp (-L)`. -/
theorem scaledGrid_apply (c : Dev nD) (b : Fin 4) (k : Fin 8192) :
    (V m c main_v6 : FVec Ideal S4x1x8192 .f32) (ix3 b (0 : Fin 1) k)
      = gridPos m c (ix3 b k (0 : Fin 1)) * Ideal.exp (-(logBandwidth m c ix0)) := by
  rw [scaledGrid_eq, transpose_ix3_021_apply]
  refine (mulf_apply _ _ _).trans ?_
  rw [broadcastInDim_apply _ bcast_S_S4x8192x1 _ (ix3 b k (0 : Fin 1)) ix0 (fun a => a.elim0)]
  rfl

end Cert.SetConv

end
-- ==== Proof.SumTiles.lean ====
/-
  A sum over 8192 columns, taken eight tiles of 1024 columns at a time.

  In a commutative monoid the order and grouping of a finite sum do not matter, so summing column `1024 · s + k` over
  the tile number `s < 8` and the column `k < 1024` inside the tile is summing over all `8192` columns: the map
  `(s, k) ↦ 1024 · s + k` is a bijection.  (The extended reals under addition are such a monoid; nothing about
  finiteness is needed here.)
-/
import Mathlib.Algebra.BigOperators.Fin
import Mathlib.Logic.Equiv.Fin.Basic

namespace Cert.SetConv

open scoped BigOperators

theorem sum_tiles {β : Type*} [AddCommMonoid β] (g : Fin 8192 → β) :
    ∑ s : Fin 8, ∑ k : Fin 1024, g ⟨1024 * s.val + k.val, by have := s.isLt; have := k.isLt; omega⟩ = ∑ M : Fin 8192, g M := by
  rw [← Fintype.sum_prod_type']
  refine Fintype.sum_equiv (finProdFinEquiv : Fin 8 × Fin 1024 ≃ Fin (8 * 1024)) _ _ fun p => congrArg g (Fin.ext ?_)
  show 1024 * p.1.val + p.2.val = (finProdFinEquiv p).val
  rw [finProdFinEquiv_apply_val]
  omega

end Cert.SetConv
-- ==== Proof.RbfLaw.lean ====
/-
  The radial-basis weight, two ways, on the extended reals.

  With bandwidth `exp L`, the weight of a query position `a` against a grid position `y` is
  `exp (-(a - y)² / (2 · (exp L)²))`.  One program divides the halved squared distance by `exp (2 · L)`;
  the other first scales both positions by `exp (-L)` and then halves and squares their difference.
  For finite `a`, `y`, `L` the two agree, because `exp (-L) · exp (-L) = 1 / exp (2 · L)` and because a
  finite factor distributes over a difference of finite numbers.  (At an infinite position the scaled
  difference `∞ - ∞` and the plain one need not agree, so finiteness is used, not decoration.)

  The two float literals involved, `-0.5` and `2.0`, are exact dyadics; they are evaluated here, once.
-/
import Idealize.ShloMosaic.PureOps.Ideal
import Idealize.ShloMosaic.PureOps.Ideal.Laws

noncomputable section

namespace Cert.SetConv

open Idealize.ShloMosaic

/-- The pattern of `-0.5` denotes the real `-1/2`. -/
theorem ofBits_neg_half : Ideal.ofBits .f32 0xBF000000#32 = ((-(1 / 2) : ℝ) : EReal) := by
  simp [Ideal.ofBits, Ideal.ieee, -EReal.coe_mul]; norm_num

/-- The pattern of `2.0` denotes the real `2`. -/
theorem ofBits_two : Ideal.ofBits .f32 0x40000000#32 = ((2 : ℝ) : EReal) := by
  simp [Ideal.ofBits, Ideal.ieee, -EReal.coe_mul]; norm_num

/-- The law on the reals: halving and squaring the difference of the two positions scaled by `exp (-L)` is
    halving and squaring their difference and dividing by `exp (2 · L)`. -/
theorem scaled_sq_real (a y L : ℝ) :
    (-(1 / 2) * (a * Real.exp (-L) - y * Real.exp (-L))) * (a * Real.exp (-L) - y * Real.exp (-L))
      = (-(1 / 2) * ((a - y) * (a - y))) * (1 / Real.exp (2 * L)) := by
  have h2 : Real.exp (2 * L) = Real.exp L * Real.exp L := by rw [two_mul, Real.exp_add]
  have hpos : Real.exp L ≠ 0 := (Real.exp_pos L).ne'
  rw [h2, Real.exp_neg]
  field_simp

/-- The weight with pre-scaled positions is the weight with the divided squared distance, at finite positions
    and a finite log-bandwidth: the exponents are the same real number. -/
theorem weight_prescaled_eq_divided (a y L : ℝ) :
    Ideal.exp ((Ideal.ofBits .f32 0xBF000000#32 * ((a : EReal) * Ideal.exp (-(L : EReal)) - (y : EReal) * Ideal.exp (-(L : EReal))))
        * ((a : EReal) * Ideal.exp (-(L : EReal)) - (y : EReal) * Ideal.exp (-(L : EReal))))
      = Ideal.exp (Ideal.div (Ideal.ofBits .f32 0xBF000000#32 * (((a : EReal) - (y : EReal)) * ((a : EReal) - (y : EReal))))
          (Ideal.exp (Ideal.ofBits .f32 0x40000000#32 * (L : EReal)))) := by
  have hs : Ideal.exp (-(L : EReal)) = ((Real.exp (-L) : ℝ) : EReal) := by rw [← EReal.coe_neg, Ideal.exp_coe]
  have hE : Ideal.exp (((2 : ℝ) : EReal) * (L : EReal)) = ((Real.exp (2 * L) : ℝ) : EReal) := by
    rw [← EReal.coe_mul, Ideal.exp_coe]
  rw [ofBits_neg_half, ofBits_two, hs, hE, Ideal.div_coe (Real.exp_pos _).ne']
  simp only [← EReal.coe_mul, ← EReal.coe_sub, Ideal.exp_coe]
  rw [scaled_sq_real]

end Cert.SetConv

end
-- ==== Proof.Spec.lean ====
/-
  The set-convolution decoder's result, index by index, in the two arrangements the two programs use.

  Arguments: grid positions `xz` [4,8192,1], features `z` [4,64,8192], query positions `x` [4,4096,1], and the
  log-bandwidth `L` (a scalar).  The result [4,4096,64] at (b, n, ch) is the weighted sum over the 8192 grid points
      Σ_M  w(b, n, M) · z(b, ch, M),
  with the radial-basis weight `w` written either over positions pre-scaled by `exp (-L)` (`prescaledResult`) or
  over the plain positions with the halved squared distance divided by `exp (2·L)` (`dividedResult`).  When the
  positions and the log-bandwidth are finite the weights agree term by term (RbfLaw), hence so do the sums; the
  features enter only as factors of a sum, so nothing is asked of them.
-/
import proofs.«138742_j858993459737_1_alg».proof.Proof.RbfLaw
import Idealize.ShloMosaic.Lib.ValueIdx

noncomputable section

namespace Cert.SetConv

open Idealize.ShloMosaic Idealize.ShloMosaic.ValueIdx
open scoped BigOperators

/-- The weight from two pre-scaled positions `p`, `q`: `exp ((-0.5 · (p - q)) · (p - q))`. -/
def scaledWeight (p q : EReal) : EReal :=
  Ideal.exp ((Ideal.ofBits .f32 0xBF000000#32 * (p - q)) * (p - q))

/-- The weight from two plain positions `a`, `y` and the log-bandwidth `L`:
    `exp ((-0.5 · ((a - y) · (a - y))) / exp (2 · L))`. -/
def dividedWeight (a y L : EReal) : EReal :=
  Ideal.exp (Ideal.div (Ideal.ofBits .f32 0xBF000000#32 * ((a - y) * (a - y))) (Ideal.exp (Ideal.ofBits .f32 0x40000000#32 * L)))

/-- One entry of the result, positions pre-scaled. -/
def prescaledEntry (xz : FVec Ideal ⟨3, ![4, 8192, 1]⟩ .f32) (z : FVec Ideal ⟨3, ![4, 64, 8192]⟩ .f32)
    (x : FVec Ideal ⟨3, ![4, 4096, 1]⟩ .f32) (L : FVec Ideal ⟨0, ![]⟩ .f32) (b : Fin 4) (n : Fin 4096) (ch : Fin 64) : EReal :=
  ∑ M : Fin 8192, scaledWeight (x (ix3 b n (0 : Fin 1)) * Ideal.exp (-(L ix0))) (xz (ix3 b M (0 : Fin 1)) * Ideal.exp (-(L ix0)))
    * z (ix3 b ch M)

/-- One entry of the result, squared distance divided. -/
def dividedEntry (xz : FVec Ideal ⟨3, ![4, 8192, 1]⟩ .f32) (z : FVec Ideal ⟨3, ![4, 64, 8192]⟩ .f32)
    (x : FVec Ideal ⟨3, ![4, 4096, 1]⟩ .f32) (L : FVec Ideal ⟨0, ![]⟩ .f32) (b : Fin 4) (n : Fin 4096) (ch : Fin 64) : EReal :=
  ∑ M : Fin 8192, dividedWeight (x (ix3 b n (0 : Fin 1))) (xz (ix3 b M (0 : Fin 1))) (L ix0) * z (ix3 b ch M)

/-- The whole result, positions pre-scaled. -/
def prescaledResult (xz : FVec Ideal ⟨3, ![4, 8192, 1]⟩ .f32) (z : FVec Ideal ⟨3, ![4, 64, 8192]⟩ .f32)
    (x : FVec Ideal ⟨3, ![4, 4096, 1]⟩ .f32) (L : FVec Ideal ⟨0, ![]⟩ .f32) : FVec Ideal ⟨3, ![4, 4096, 64]⟩ .f32 :=
  fun i => prescaledEntry xz z x L (i 0) (i 1) (i 2)

/-- The whole result, squared distance divided. -/
def dividedResult (xz : FVec Ideal ⟨3, ![4, 8192, 1]⟩ .f32) (z : FVec Ideal ⟨3, ![4, 64, 8192]⟩ .f32)
    (x : FVec Ideal ⟨3, ![4, 4096, 1]⟩ .f32) (L : FVec Ideal ⟨0, ![]⟩ .f32) : FVec Ideal ⟨3, ![4, 4096, 64]⟩ .f32 :=
  fun i => dividedEntry xz z x L (i 0) (i 1) (i 2)

/-- With finite positions and a finite log-bandwidth the two arrangements are the same array. -/
theorem prescaled_eq_divided (xz : FVec Ideal ⟨3, ![4, 8192, 1]⟩ .f32) (z : FVec Ideal ⟨3, ![4, 64, 8192]⟩ .f32)
    (x : FVec Ideal ⟨3, ![4, 4096, 1]⟩ .f32) (L : FVec Ideal ⟨0, ![]⟩ .f32)
    (hxz : ∀ i, ∃ r : ℝ, xz i = (r : EReal)) (hx : ∀ i, ∃ r : ℝ, x i = (r : EReal)) (hL : ∃ r : ℝ, L ix0 = (r : EReal)) :
    prescaledResult xz z x L = dividedResult xz z x L := by
  funext i
  unfold prescaledResult dividedResult prescaledEntry dividedEntry
  refine Finset.sum_congr rfl fun M _ => ?_
  obtain ⟨a, ha⟩ := hx (ix3 (i 0) (i 1) (0 : Fin 1))
  obtain ⟨y, hy⟩ := hxz (ix3 (i 0) M (0 : Fin 1))
  obtain ⟨l, hl⟩ := hL
  rw [ha, hy, hl]
  unfold scaledWeight dividedWeight
  rw [weight_prescaled_eq_divided]

end Cert.SetConv

end
-- ==== Proof.Result.lean ====
/-
  The kernel's result array.

  Entry (b, n, ch) of the result lies in the output tile of batch b and row tile n / 1024, which is written back once,
  after the last point of that tile's run of eight grid points.  What is written is the accumulator after that point:
  the sum over the eight column tiles s of the tile contributions, that is
      Σ_{s < 8} Σ_{k < 1024}  weight(x'(b, n), xz'(b, 1024·s + k)) · z(b, ch, 1024·s + k)
  with x', xz' the positions scaled by `exp (-L)`; re-grouped, the sum over all 8192 grid points M.  The output tiles
  of the sixteen runs tile the whole array, so the array ends at `prescaledResult` of the four arguments.
-/
import proofs.«138742_j858993459737_1_alg».proof.Proof.Gen.KernelIdeal.Value
import proofs.«138742_j858993459737_1_alg».proof.Proof.Partial
import proofs.«138742_j858993459737_1_alg».proof.Proof.Tiles
import proofs.«138742_j858993459737_1_alg».proof.Proof.Prescale
import proofs.«138742_j858993459737_1_alg».proof.Proof.SumTiles
import proofs.«138742_j858993459737_1_alg».proof.Proof.Spec

noncomputable section

open Idealize.ShloMosaic Idealize.ShloMosaic.TcCoe Idealize.ShloMosaic.ValueIdx Idealize.SL.Sem
open Idealize.ShloMosaic.Pipeline (Dat)

namespace Cert.SetConv

open Cert.KernelIdeal Cert.KernelIdeal.Gen
open scoped BigOperators

variable (m : (ℓ : Loc nD τ sig) → Buf (Elt Ideal) ℓ) (ρ : Dev nD → PrngReg)

/-- What the kernel's program computes: the pre-scaled arrangement of the four launch arrays. -/
abbrev kernelResult (c : Dev nD) : FVec Ideal S4x4096x64 .f32 :=
  prescaledResult (gridPos m c) (features m c) (queryPos m c) (logBandwidth m c)

/-- One summand of an entry: grid point `M`'s weight against query (b, n), times the feature (b, ch, M). -/
abbrev summand (c : Dev nD) (b : Fin 4) (n : Fin 4096) (ch : Fin 64) (M : Fin 8192) : EReal :=
  scaledWeight (queryPos m c (ix3 b n (0 : Fin 1)) * Ideal.exp (-(logBandwidth m c ix0)))
      (gridPos m c (ix3 b M (0 : Fin 1)) * Ideal.exp (-(logBandwidth m c ix0)))
    * features m c (ix3 b ch M)

/-- Grid point `p`'s contribution at (r, ch), in the launch arrays: the summands of its 1024 columns. -/
theorem tileTerm_eq (c : Dev nD) (p : ℕ) (hp : p < cfg0.N) (r : Fin 1024) (ch : Fin 64) (b : Fin 4) (n : Fin 4096)
    (hb : b.val = p / 32) (hn : n.val = 1024 * (p / 8 % 4) + r.val)
    (col : Fin 1024 → Fin 8192) (hcol : ∀ k, (col k).val = 1024 * (p % 8) + k.val) :
    tileTerm m c p r ch = ∑ k : Fin 1024, summand m c b n ch (col k) := by
  rw [tileTerm_of_lt m c p hp]
  refine Finset.sum_congr rfl fun k _ => ?_
  unfold tileWeight
  rw [queryTile_apply m c ⟨p, hp⟩ r b n hb hn, gridTile_apply m c ⟨p, hp⟩ k b (col k) hb (hcol k),
    featureTile_apply m c ⟨p, hp⟩ ch k b (col k) hb (hcol k), scaledQueries_apply, scaledGrid_apply]
  rfl

/-- A run's eight contributions add up to the entry of the pre-scaled arrangement. -/
theorem run_sum_eq (c : Dev nD) (q : ℕ) (hq : 8 * q + 7 < cfg0.N) (r : Fin 1024) (ch : Fin 64) (b : Fin 4) (n : Fin 4096)
    (hb : b.val = q / 4) (hn : n.val = 1024 * (q % 4) + r.val) :
    ∑ s ∈ Finset.range 8, tileTerm m c (8 * q + s) r ch
      = prescaledEntry (gridPos m c) (features m c) (queryPos m c) (logBandwidth m c) b n ch := by
  rw [Finset.sum_range]
  have each : ∀ s : Fin 8, tileTerm m c (8 * q + s.val) r ch
      = ∑ k : Fin 1024, summand m c b n ch ⟨1024 * s.val + k.val, by have := s.isLt; have := k.isLt; omega⟩ := fun s =>
    tileTerm_eq m c (8 * q + s.val) (by have := s.isLt; omega) r ch b n (by have := s.isLt; omega) (by have := s.isLt; omega) _
      (fun k => by have := s.isLt; show 1024 * s.val + k.val = 1024 * ((8 * q + s.val) % 8) + k.val; omega)
  rw [Finset.sum_congr rfl fun s _ => each s]
  exact sum_tiles (summand m c b n ch)

/-- The same, at an index of the result array given by its coordinates' values. -/
theorem run_sum_at (c : Dev nD) (q : ℕ) (hq : 8 * q + 7 < cfg0.N) (r : Fin 1024) (ch : Fin 64) (i : S4x4096x64.Idx)
    (h0 : (i 0).val = q / 4) (h1 : (i 1).val = 1024 * (q % 4) + r.val) (h2 : (i 2).val = ch.val) :
    ∑ s ∈ Finset.range 8, tileTerm m c (8 * q + s) r ch = kernelResult m c i := by
  obtain ⟨b, n, ch', rfl⟩ : ∃ (b : Fin 4) (n : Fin 4096) (ch' : Fin 64), i = ix3 b n ch' := ⟨i 0, i 1, i 2, eq_ix3 i⟩
  obtain rfl : ch' = ch := Fin.ext h2
  exact run_sum_eq m c q hq r ch' b n h0 h1

/-- At the last point of a run the output tile holds the accumulator that point leaves, re-shaped. -/
theorem out_at_last (c : Dev nD) (t : Fin cfg0.N) (h0 : ¬t.val % 8 = 0) (h1 : t.val % 8 = 7) :
    (outsAt0 m c t.val t.isLt).1 = k0_pay3 ((outsAt0 m c t.val t.isLt).2) := by
  rw [outsAt0_C m c t h0 h1]
  dsimp only
  rw [Found.out_last, Found.acc_last]

/-- WHAT A WRITE-BACK WRITES is its tile of the pre-scaled arrangement. -/
theorem flushed_eq (c : Dev nD) (t : Fin cfg0.N) (hf : (cfg0.win 3).flush t = true) :
    (dats m 0 c).flushed 3 t = ((cfg0.win 3).blk t).view.read (Elt Ideal) (kernelResult m c) := by
  have h7 : t.val % 8 = 7 := (flush0_3 t).mp hf
  have hN : cfg0.N = 128 := N_0
  have ht := t.isLt
  obtain ⟨-, -, -, -, -, -, -, -, -, e0, e1, e2⟩ := tile_indices t
  show (cfg0.win 3).cut (grid0.coords t) ((dats m 0 c).after 3 t) = _
  rw [after0_3, out_at_last m c t (by omega) h7]
  refine funext fun (y : S1x1024x64.Idx) => ?_
  obtain ⟨u, r, ch, rfl⟩ : ∃ (u : Fin 1) (r : Fin 1024) (ch : Fin 64), y = ix3 u r ch := ⟨y 0, y 1, y 2, eq_ix3 y⟩
  rw [View.read_apply]
  show k0_pay3 ((outsAt0 m c t.val t.isLt).2) (ix3 u r ch) = kernelResult m c _
  rw [copied_apply, acc_after m c t r ch, h7]
  have hu := u.isLt
  refine run_sum_at m c (t.val / 8) (by omega) r ch _ ?_ ?_ ?_
  · show win0_3.index t (0 : Fin 3) * 1 + 1 * u.val = t.val / 8 / 4; omega
  · show win0_3.index t (1 : Fin 3) * 1024 + 1 * r.val = 1024 * (t.val / 8 % 4) + r.val; omega
  · show win0_3.index t (2 : Fin 3) * 64 + 1 * ch.val = ch.val; omega

/-- An index is in a point's output tile iff each coordinate is in the tile's range on its axis. -/
theorem mem_outTile (t : Fin cfg0.N) (i : S4x4096x64.Idx) :
    i ∈ ((cfg0.win 3).blk t).view.set ↔ ∀ a : Fin 3, win0_3.index t a * S1x1024x64.size a ≤ (i a).val
      ∧ (i a).val < win0_3.index t a * S1x1024x64.size a + S1x1024x64.size a := by
  show i ∈ ((View.whole main_v7).slice (win0_3.rect t)).set ↔ _
  rw [View.set_slice_whole, Rect.mem_set_unit]
  exact Iff.rfl

/-- Every index of the result lies in the tile written back at the last point of its batch's and row tile's run. -/
theorem covered (i : S4x4096x64.Idx) :
    ∃ t : Fin cfg0.N, (cfg0.win 3).flush t = true ∧ i ∈ ((cfg0.win 3).blk t).view.set := by
  have hN : cfg0.N = 128 := N_0
  have h0 : (i 0).val < 4 := (i 0).isLt
  have h1 : (i 1).val < 4096 := (i 1).isLt
  have h2 : (i 2).val < 64 := (i 2).isLt
  obtain ⟨t, tv⟩ : ∃ t : Fin cfg0.N, t.val = ((i 0).val * 4 + (i 1).val / 1024) * 8 + 7 :=
    ⟨⟨((i 0).val * 4 + (i 1).val / 1024) * 8 + 7, by omega⟩, rfl⟩
  obtain ⟨-, -, -, -, -, -, -, -, -, e0, e1, e2⟩ := tile_indices t
  refine ⟨t, (flush0_3 t).mpr (by omega), ?_⟩
  rw [mem_outTile]
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 1024 ≤ (i 1).val ∧ (i 1).val < win0_3.index t (1 : Fin 3) * 1024 + 1024; omega
  | ⟨2, _⟩ => show win0_3.index t (2 : Fin 3) * 64 ≤ (i 2).val ∧ (i 2).val < win0_3.index t (2 : Fin 3) * 64 + 64; omega

/-- THE RESULT ARRAY after the run is the pre-scaled arrangement of the launch arrays. -/
theorem final (c : Dev nD) : (dats m 0 c).arrAt 3 cfg0.N = kernelResult m c :=
  (dats m 0 c).arrAt_eq_of_cover 3 (kernelResult m c) (fun t hf => flushed_eq m c t hf) covered

/-- The kernel program's run, read: the result at the pre-scaled arrangement, the arguments unchanged. -/
theorem run : θ_run defs (onTc (τ := τ) (main (F := Ideal))) ⟨m, fun _ => 0, ρ⟩ fun r => ∀ c : Dev nD,
      r.2.mem ((c : Thread nD τ).loc main_v7) = kernelResult m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (Value.run_blocks m ρ)

end Cert.SetConv

end
-- ==== Proof.RefRead.lean ====
/-
  The reference computes the divided arrangement.

  Read one operation at a time, the reference's result at (b, n, ch) is the sum over the 8192 grid points M of
  `exp ((-0.5 · ((x(b,n) - xz(b,M)) · (x(b,n) - xz(b,M)))) / exp (2 · L)) · z(b, ch, M)`: the transpose and the two
  broadcasts only route indices, the constants broadcast to every entry, and the batched contraction over the last
  axis of both operands is the plain sum over that axis.
-/
import proofs.«138742_j858993459737_1_alg».proof.Proof.Gen.ReferenceIdeal.Read
import proofs.«138742_j858993459737_1_alg».proof.Proof.Spec

noncomputable section

namespace Cert.SetConv.Ref

open Idealize.ShloMosaic Idealize.ShloMosaic.ValueIdx Cert.ReferenceIdeal Cert.ReferenceIdeal.Gen Cert.ReferenceIdeal.Read
open Cert.SetConv

theorem reference_is_divided (x0 : FVec Ideal S4x8192x1 .f32) (x1 : FVec Ideal S4x64x8192 .f32) (x2 : FVec Ideal S4x4096x1 .f32)
    (x3 : FVec Ideal S_ .f32) :
    val_main_v12 (F := Ideal) x0 x1 x2 x3 = dividedResult x0 x1 x2 x3 := by
  funext i
  obtain ⟨b, n, ch, rfl⟩ : ∃ (b : Fin 4) (n : Fin 4096) (ch : Fin 64), i = ix3 b n ch := ⟨i 0, i 1, i 2, eq_ix3 i⟩
  rw [val_main_v12_apply]
  show _ = dividedEntry x0 x1 x2 x3 b n ch
  unfold dividedEntry
  refine Finset.sum_congr rfl fun M _ => ?_
  have hl : lidx_main_v12 (ix3 b n ch) M = ix3 b n M :=
    funext fun a => Fin.ext (by match a with | ⟨0, _⟩ => rfl | ⟨1, _⟩ => rfl | ⟨2, _⟩ => rfl)
  have hr : ridx_main_v12 (ix3 b n ch) M = ix3 b ch M :=
    funext fun a => Fin.ext (by match a with | ⟨0, _⟩ => rfl | ⟨1, _⟩ => rfl | ⟨2, _⟩ => rfl)
  have h1 : idx_main_v1 (ix3 b n M) = ix3 b n (0 : Fin 1) :=
    funext fun a => Fin.ext (by match a with | ⟨0, _⟩ => rfl | ⟨1, _⟩ => rfl | ⟨2, _⟩ => rfl)
  have h2 : idx_main_v0 (idx_main_v2 (ix3 b n M)) = ix3 b M (0 : Fin 1) :=
    funext fun a => Fin.ext (by match a with | ⟨0, _⟩ => rfl | ⟨1, _⟩ => rfl | ⟨2, _⟩ => rfl)
  rw [hl, hr, val_main_v11_apply, val_main_v10_apply, val_main_v6_apply, val_main_v9_apply, val_main_v8_apply,
    val_main_v7_apply, val_main_cst_0_apply, val_main_v5_apply, val_main_cst_apply, val_main_v4_apply, val_main_v3_apply,
    val_main_v1_apply, val_main_v2_apply, val_main_v0_apply, h1, h2]
  rfl

end Cert.SetConv.Ref

end
-- ==== Proof.Finite.lean ====
/-
  From the precondition to real numbers.

  The precondition says, of each float input, that every entry's absolute value is below `+∞` (an `all` over the
  array), the four statements joined by `and`.  On the extended reals `|v| < +∞` rules out both infinities, so `v`
  is a real number.  Read off here for the inputs the algebra needs: both position arrays and the log-bandwidth.
-/
import proofs.«138742_j858993459737_1_alg».proof.Proof.Gen.Pre_finite_inputs
import Idealize.ShloMosaic.Lib.ReduceAll
import Idealize.ShloMosaic.Lib.Affine
import Idealize.ShloMosaic.Lib.ValueIdx
import Idealize.ShloMosaic.Lib.Pipeline.Value
import Idealize.ShloMosaic.PureOps.Ideal.Laws

noncomputable section

namespace Cert.SetConv

open Idealize.ShloMosaic Idealize.ShloMosaic.ValueIdx Cert.Pre_finite_inputs

instance subsingleton_scalarIdx : Subsingleton S_.Idx := ⟨fun a b => funext fun d => d.elim0⟩

/-- The pattern of `+inf` denotes the top of the extended reals. -/
theorem ofBits_pos_inf : Ideal.ofBits .f32 0x7F800000#32 = ⊤ := by
  simp [Ideal.ofBits, Ideal.ieee]

/-- An extended real whose absolute value compares below `+∞` is a real number. -/
theorem real_of_abs_lt_top (v : EReal) (h : Ideal.cmp .olt (max v (-v)) ⊤ = 1#1) : ∃ r : ℝ, v = (r : EReal) := by
  induction v using EReal.rec with
  | bot => simp [Ideal.cmp] at h
  | coe r => exact ⟨r, rfl⟩
  | top => simp [Ideal.cmp] at h

/-- An entry of an array that passes `|·| < broadcast(+inf)` entrywise is a real number. -/
theorem real_of_entry {s : Shape} (v : FVec Ideal s .f32) (h' : S_.BroadcastsInDim s (![] : Fin 0 → Fin s.rank)) (i : s.Idx)
    (h : cmpf .olt (Host.absf v) (broadcastInDim s ![] h' (constant (F := Ideal) S_ .f32 0x7F800000#32)) i = 1#1) :
    ∃ r : ℝ, v i = (r : EReal) := by
  have e : broadcastInDim s ![] h' (constant (F := Ideal) S_ .f32 0x7F800000#32) i = Ideal.ofBits .f32 0x7F800000#32 :=
    broadcastInDim_apply _ h' _ i ix0 (fun a => a.elim0)
  have h2 : Ideal.cmp .olt (max (v i) (-(v i))) (broadcastInDim s ![] h' (constant (F := Ideal) S_ .f32 0x7F800000#32) i) = 1#1 := h
  rw [e, ofBits_pos_inf] at h2
  exact real_of_abs_lt_top _ h2

/-- THE PRECONDITION READ: both position arrays and the log-bandwidth hold real numbers. -/
theorem real_of_finite_inputs (xz : FVec Ideal S4x8192x1 .f32) (z : FVec Ideal S4x64x8192 .f32) (x : FVec Ideal S4x4096x1 .f32)
    (L : FVec Ideal S_ .f32) (h : fn (F := Ideal) xz z x L = fun _ => 1#1) :
    (∀ i, ∃ r : ℝ, xz i = (r : EReal)) ∧ (∀ i, ∃ r : ℝ, x i = (r : EReal)) ∧ (∃ r : ℝ, L ix0 = (r : EReal)) := by
  have h0 := congrFun h ix0
  dsimp only [fn, fn_part1] at h0
  obtain ⟨h13, h16⟩ := IntOp.andi_eq_one.1 h0
  obtain ⟨h8, h12⟩ := IntOp.andi_eq_one.1 h13
  obtain ⟨h3, -⟩ := IntOp.andi_eq_one.1 h8
  refine ⟨fun i => ?_, fun i => ?_, ?_⟩
  · exact real_of_entry xz _ i (Host.reduce_andi_all _ _ _ _ ix0 h3 i)
  · exact real_of_entry x _ i (Host.reduce_andi_all _ _ _ _ ix0 h12 i)
  · have h15 := Host.reduce_andi_all _ _ _ _ ix0 h16 ix0
    have h2 : Ideal.cmp .olt (max (L ix0) (-(L ix0))) (Ideal.ofBits .f32 0x7F800000#32) = 1#1 := h15
    rw [ofBits_pos_inf] at h2
    exact real_of_abs_lt_top _ h2

end Cert.SetConv

end
-- ==== Proof.lean ====
/-
  The set-convolution decoder kernel against its reference, on the extended reals.

  Both programs compute, for batch b, query n and channel ch, the radial-basis weighted sum over the 8192 grid points
      out(b, n, ch) = Σ_M  exp( -(x(b,n) - xz(b,M))² / (2 · exp(L)²) ) · z(b, ch, M).
  The kernel first scales both position arrays by `exp (-L)` and then, tile by tile over a [4, 4, 8] grid, adds
  `exp((-0.5 · d) · d) · z` over 1024 grid points at a time into an accumulator it writes out after the eighth tile;
  the reference divides the halved squared distance by `exp (2 · L)` and contracts all 8192 grid points at once.

  * The kernel's result array is the weighted sum with pre-scaled positions (Result: the accumulator after a grid point
    is a partial sum over column tiles, the eight tiles re-group to the 8192 grid points, and the output tiles cover the
    array).
  * The reference's result is the weighted sum with the divided squared distance (RefRead).
  * For finite positions and a finite log-bandwidth — which the precondition gives (Finite) — the two weights are equal
    term by term, since `exp (-L) · exp (-L) = 1 / exp (2 · L)` and a finite factor distributes over a finite
    difference (RbfLaw, Spec).  Re-grouping the sum needs no finiteness, and nothing is asked of the features.
  The three frames are the programs' runs with the result forgotten; the idealization rewrote nothing.
-/
import proofs.«138742_j858993459737_1_alg».proof.Defs
import proofs.«138742_j858993459737_1_alg».proof.Proof.Gen.Kernel
import proofs.«138742_j858993459737_1_alg».proof.Proof.Gen.Kernel.Frame
import proofs.«138742_j858993459737_1_alg».proof.Proof.Gen.KernelIdeal
import proofs.«138742_j858993459737_1_alg».proof.Proof.Gen.KernelIdeal.Frame
import proofs.«138742_j858993459737_1_alg».proof.Proof.Gen.KernelIdeal.Value
import proofs.«138742_j858993459737_1_alg».proof.Proof.Gen.ReferenceIdeal
import proofs.«138742_j858993459737_1_alg».proof.Proof.Gen.ReferenceIdeal.Run
import proofs.«138742_j858993459737_1_alg».proof.Proof.Gen.ReferenceIdeal.Read
import proofs.«138742_j858993459737_1_alg».proof.Proof.Gen.Pre_finite_inputs
import proofs.«138742_j858993459737_1_alg».proof.Proof.Result
import proofs.«138742_j858993459737_1_alg».proof.Proof.RefRead
import proofs.«138742_j858993459737_1_alg».proof.Proof.Finite
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs run; the kernel's result is the pre-scaled arrangement of its arguments, the reference's the divided
    arrangement of the same arrays, and under the precondition these are one array. -/
theorem algebraic : Cert.algebraic_KernelIdeal_ReferenceIdeal := by
  intro m ρ m' ρ' hpre hagree
  refine ⟨fun c => Cert.SetConv.kernelResult m c, Cert.SetConv.run m ρ, ?_⟩
  refine (θ_run Cert.ReferenceIdeal.defs _ _).mono (fun _ h c => ⟨(h c).1.trans ?_, (h c).2⟩)
    (Cert.ReferenceIdeal.Value.run (F := Ideal) m' ρ')
  obtain ⟨hxz, hx, hL⟩ := Cert.SetConv.real_of_finite_inputs _ _ _ _ (hpre c)
  rw [Cert.ReferenceIdeal.Read.val_main_v12_eq, Cert.SetConv.Ref.reference_is_divided,
    (hagree c).1, (hagree c).2.1, (hagree c).2.2.1, (hagree c).2.2.2]
  exact (Cert.SetConv.prescaled_eq_divided _ _ _ _ hxz hx hL).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
